-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x4560 : Shape := ⟨3, ![4, 256, 4560]⟩
abbrev S4x4560x9120 : Shape := ⟨3, ![4, 4560, 9120]⟩
abbrev S4x9120 : Shape := ⟨2, ![4, 9120]⟩
abbrev S_ : Shape := ⟨0, ![]⟩

class Facts : Prop where
  bcast_S_S4x256x4560 : S_.BroadcastsInDim S4x256x4560 (![] : Fin 0 → Fin S4x256x4560.rank)
  reducesTo_S4x256x4560_S_d0_1_2 : S4x256x4560.ReducesTo [0, 1, 2] S_
  h_S_ : 0 < S_.numel
  bcast_S_S4x4560x9120 : S_.BroadcastsInDim S4x4560x9120 (![] : Fin 0 → Fin S4x4560x9120.rank)
  reducesTo_S4x4560x9120_S_d0_1_2 : S4x4560x9120.ReducesTo [0, 1, 2] S_
  bcast_S_S4x9120 : S_.BroadcastsInDim S4x9120 (![] : Fin 0 → Fin S4x9120.rank)
  reducesTo_S4x9120_S_d0_1 : S4x9120.ReducesTo [0, 1] S_

variable [Facts]

def fn {F : FTy → Type} [FloatOps F] (main_arg0 : FVec F S4x256x4560 .f32) (main_arg1 : FVec F S4x4560x9120 .f32) (main_arg2 : FVec F S4x9120 .f32) : IVec S_ 1 :=
  let main_v0 : FVec F S4x256x4560 .f32 := Host.absf main_arg0
  let main_cst : FVec F S_ .f32 := constant S_ .f32 0x7F800000#32
  let main_v1 : FVec F S4x256x4560 .f32 := broadcastInDim S4x256x4560 ![] bcast_S_S4x256x4560 main_cst
  let main_v2 : IVec S4x256x4560 1 := cmpf .olt main_v0 main_v1
  let main_c : IVec S_ 1 := constantI S_ 1 1#1
  let main_v3 : IVec S_ 1 := (fun x v => Host.reduce IntOp.andi x v reducesTo_S4x256x4560_S_d0_1_2 h_S_) main_v2 main_c
  let main_v4 : FVec F S4x4560x9120 .f32 := Host.absf main_arg1
  let main_cst_0 : FVec F S_ .f32 := constant S_ .f32 0x7F800000#32
  let main_v5 : FVec F S4x4560x9120 .f32 := broadcastInDim S4x4560x9120 ![] bcast_S_S4x4560x9120 main_cst_0
  let main_v6 : IVec S4x4560x9120 1 := cmpf .olt main_v4 main_v5
  let main_c_1 : IVec S_ 1 := constantI S_ 1 1#1
  let main_v7 : IVec S_ 1 := (fun x v => Host.reduce IntOp.andi x v reducesTo_S4x4560x9120_S_d0_1_2 h_S_) main_v6 main_c_1
  let main_v8 : IVec S_ 1 := andi main_v3 main_v7
  let main_v9 : FVec F S4x9120 .f32 := Host.absf main_arg2
  let main_cst_2 : FVec F S_ .f32 := constant S_ .f32 0x7F800000#32
  let main_v10 : FVec F S4x9120 .f32 := broadcastInDim S4x9120 ![] bcast_S_S4x9120 main_cst_2
  let main_v11 : IVec S4x9120 1 := cmpf .olt main_v9 main_v10
  let main_c_3 : IVec S_ 1 := constantI S_ 1 1#1
  let main_v12 : IVec S_ 1 := (fun x v => Host.reduce IntOp.andi x v reducesTo_S4x9120_S_d0_1 h_S_) main_v11 main_c_3
  let main_v13 : IVec S_ 1 := andi main_v8 main_v12
  main_v13
-- ==== Kernel.lean ====
abbrev S4x256x4560 : Shape := ⟨3, ![4, 256, 4560]⟩
abbrev S4x4560x9120 : Shape := ⟨3, ![4, 4560, 9120]⟩
abbrev S4x9120 : Shape := ⟨2, ![4, 9120]⟩
abbrev S_ : Shape := ⟨0, ![]⟩
abbrev S4x256x4608 : Shape := ⟨3, ![4, 256, 4608]⟩
abbrev S4x4608x9216 : Shape := ⟨3, ![4, 4608, 9216]⟩
abbrev S4x9216 : Shape := ⟨2, ![4, 9216]⟩
abbrev S4x1x9216 : Shape := ⟨3, ![4, 1, 9216]⟩
abbrev S4x256x9216 : Shape := ⟨3, ![4, 256, 9216]⟩
abbrev S1x256x768 : Shape := ⟨3, ![1, 256, 768]⟩
abbrev S1x768x1024 : Shape := ⟨3, ![1, 768, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S768x1024 : Shape := ⟨2, ![768, 1024]⟩
abbrev S256x768 : Shape := ⟨2, ![256, 768]⟩
abbrev S4x256x9120 : Shape := ⟨3, ![4, 256, 9120]⟩

abbrev nBuf : Space → Nat
  | .hbm => 15
  | .vmem => 9
  | .smem => 0
  | _ => 0

abbrev bufTy : (tb : Table) → Fin (tcTables nBuf tb) → BufTy
  | .hbm, ⟨0, _⟩ => ⟨S4x256x4560, .f32⟩
  | .hbm, ⟨1, _⟩ => ⟨S4x4560x9120, .f32⟩
  | .hbm, ⟨2, _⟩ => ⟨S4x9120, .f32⟩
  | .hbm, ⟨3, _⟩ => ⟨S_, .i32⟩
  | .hbm, ⟨4, _⟩ => ⟨S_, .f32⟩
  | .hbm, ⟨5, _⟩ => ⟨S4x256x4608, .f32⟩
  | .hbm, ⟨6, _⟩ => ⟨S_, .i32⟩
  | .hbm, ⟨7, _⟩ => ⟨S_, .f32⟩
  | .hbm, ⟨8, _⟩ => ⟨S4x4608x9216, .f32⟩
  | .hbm, ⟨9, _⟩ => ⟨S_, .f32⟩
  | .hbm, ⟨10, _⟩ => ⟨S_, .f32⟩
  | .hbm, ⟨11, _⟩ => ⟨S4x9216, .f32⟩
  | .hbm, ⟨12, _⟩ => ⟨S4x1x9216, .f32⟩
  | .hbm, ⟨13, _⟩ => ⟨S4x256x9216, .f32⟩
  | .hbm, ⟨14, _⟩ => ⟨S4x256x9120, .f32⟩
  | .local _ .vmem, ⟨0, _⟩ => ⟨S1x256x768, .f32⟩
  | .local _ .vmem, ⟨1, _⟩ => ⟨S1x256x768, .f32⟩
  | .local _ .vmem, ⟨2, _⟩ => ⟨S1x768x1024, .f32⟩
  | .local _ .vmem, ⟨3, _⟩ => ⟨S1x768x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | _, _ => ⟨S4x256x4560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_cst : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 9, 6], ![false, false, false]⟩

def k0_cond2 (i : grid0.Coords) : BitVec 1 :=
  let arg2 : BitVec 32 := BitVec.ofNat 32 (i 2).val
  let c5_i32 : BitVec 32 := 5#32
  let v19 : BitVec 1 := Scalar.cmpi .eq arg2 c5_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S4x256x4560_S4x256x4608_000_000_0480 : S4x256x4560.Pads (![0, 0, 0] : Fin 3 → Nat) ![0, 0, 48] ![0, 0, 0] S4x256x4608
  h_S_ : 0 < S_.numel
  pads_S4x4560x9120_S4x4608x9216_000_0480_0960 : S4x4560x9120.Pads (![0, 0, 0] : Fin 3 → Nat) ![0, 48, 96] ![0, 0, 0] S4x4608x9216
  pads_S4x9120_S4x9216_000_0960 : S4x9120.Pads (![0, 0] : Fin 2 → Nat) ![0, 96] ![0, 0] S4x9216
  bcast_S4x9216_S4x1x9216_0_2 : S4x9216.BroadcastsInDim S4x1x9216 (![0, 2] : Fin 2 → Fin S4x1x9216.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  broadcasts_S1x1024_S768x1024 : S1x1024.Broadcasts S768x1024
  bitsLt_bf16_f32 : FTy.bits .bf16 < FTy.bits .f32
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  slices_S4x256x9216_S4x256x9120_0_0_0 : S4x256x9216.Slices ![0, 0, 0] S4x256x9120
  dot_S256x768_S768x1024_S256x1024_1_0_0_1_n_n_wf : DotDims.WF S256x768 S768x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S4x256x4608.size a
  hwx0_0 : ∀ i : grid0.Coords, EltTy.bits .f32 = 32 ∨ (Rect.block (s := S4x256x4608) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1024.size a ≤ S4x4608x9216.size a
  hwx0_1 : ∀ i : grid0.Coords, EltTy.bits .f32 = 32 ∨ (Rect.block (s := S4x4608x9216) S1x768x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x9216.size a
  hwx0_2 : ∀ i : grid0.Coords, EltTy.bits .f32 = 32 ∨ (Rect.block (s := S4x1x9216) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x256x9216.size a
  hwx0_3 : ∀ i : grid0.Coords, EltTy.bits .f32 = 32 ∨ (Rect.block (s := S4x256x9216) S1x256x1024.size (cc0_transform_3 i) (hinb0_3 i)).WholeWords (EltTy.packing .f32)

variable [Facts₀]

def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf

abbrev win0_0 : Pipeline.Window sig grid0 :=
  Pipeline.Window.ofSpec (Memref.whole main_v0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x768x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x256x4560 : Shape := ⟨3, ![4, 256, 4560]⟩
abbrev S4x4560x9120 : Shape := ⟨3, ![4, 4560, 9120]⟩
abbrev S4x9120 : Shape := ⟨2, ![4, 9120]⟩
abbrev S4x1x9120 : Shape := ⟨3, ![4, 1, 9120]⟩
abbrev S4x256x9120 : Shape := ⟨3, ![4, 256, 9120]⟩

abbrev nBuf : Space → Nat
  | .hbm => 7
  | .vmem => 0
  | .smem => 0
  | _ => 0

abbrev bufTy : (tb : Table) → Fin (tcTables nBuf tb) → BufTy
  | .hbm, ⟨0, _⟩ => ⟨S4x256x4560, .f32⟩
  | .hbm, ⟨1, _⟩ => ⟨S4x4560x9120, .f32⟩
  | .hbm, ⟨2, _⟩ => ⟨S4x9120, .f32⟩
  | .hbm, ⟨3, _⟩ => ⟨S4x1x9120, .f32⟩
  | .hbm, ⟨4, _⟩ => ⟨S4x4560x9120, .f32⟩
  | .hbm, ⟨5, _⟩ => ⟨S4x4560x9120, .f32⟩
  | .hbm, ⟨6, _⟩ => ⟨S4x256x9120, .f32⟩
  | _, _ => ⟨S4x256x4560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4x9120_S4x1x9120_0_2 : S4x9120.BroadcastsInDim S4x1x9120 (![0, 2] : Fin 2 → Fin S4x1x9120.rank)
  bcast_S4x1x9120_S4x4560x9120_0_1_2 : S4x1x9120.BroadcastsInDim S4x4560x9120 (![0, 1, 2] : Fin 3 → Fin S4x4560x9120.rank)
  dot_S4x256x4560_S4x4560x9120_S4x256x9120_2_1_1_2_0_0_wf : DotDims.WF S4x256x4560 S4x4560x9120 S4x256x9120 [2] [1] [1] [2] [0] [0]

variable [Facts₀]

def dot_S4x256x4560_S4x4560x9120_S4x256x9120_2_1_1_2_0_0 : DotDims S4x256x4560 S4x4560x9120 S4x256x9120 where
  lhsContracting := [2]
  rhsContracting := [1]
  lhsNonContracting := [1]
  rhsNonContracting := [2]
  lhsBatch := [0]
  rhsBatch := [0]
  wf := dot_S4x256x4560_S4x4560x9120_S4x256x9120_2_1_1_2_0_0_wf

class Facts : Prop extends Facts₀ where

variable [Facts]
-- ==== Proof.Pieces.lean ====
/-
  What one run of the body leaves behind, case by case, as values.

  The body has three control cases along the reduction axis k of the grid (b, n, k): at k = 0 it first zeroes the
  [256, 1024] accumulator; at every k it adds the block product into the accumulator; at k = 5 it also copies the
  accumulator into the output block. The generated frame records, per case, the LIST of stores the run found; here
  each list is read back as the one value it amounts to. Every store covers its whole buffer, so the last store
  wins, and a load after a covering store reads that store's value.
-/
import proofs.«133366_j34256659153543_2_alg».proof.Proof.Gen.KernelIdeal.Frame
import Idealize.ShloMosaic.Lib.Pipeline.Value
import Idealize.ShloMosaic.Lib.Tactic

set_option maxRecDepth 16384

noncomputable section

namespace Cert.KernelIdeal.Unpool

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- MIDDLE reduction steps (neither first nor last): the accumulator holding `acc` is left at the accumulated value
    of the three loaded blocks — the body's one store into it, whose loads read the whole buffers. -/
theorem scratch_B (c : Dev nD) (i : grid0.Coords) (a3 : Memref sig .tc .vmem S1x256x768 .f32) (h3 : a3.IsWhole) (a4 : Memref sig .tc .vmem S1x768x1024 .f32) (h4 : a4.IsWhole) (a5 : Memref sig .tc .vmem S1x1x1024 .f32) (h5 : a5.IsWhole) (a6 : Memref sig .tc .vmem S1x256x1024 .f32) (h6 : a6.IsWhole) (a7 : Memref sig .tc .vmem S256x1024 .f32) (h7 : a7.IsWhole) (hc0 : ¬cond0_0 i) (hc1 : ¬cond0_1 i) (x0 : Vec F S1x256x768 .f32) (x1 : Vec F S1x768x1024 .f32) (x2 : Vec F S1x1x1024 .f32) (xs0 : Vec F S256x1024 .f32) :
    sout0_B_0 c i a3 h3 a4 h4 a5 h5 a6 h6 a7 h7 hc0 hc1 x0 x1 x2 xs0 = k0_pay2 x2 x1 x0 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S256x1024) hz2]
  simp only [View.readAt_eq_ld, h3.read_unread, h4.read_unread, h5.read_unread, h7.read_unread,
    View.ld_unit_zero (S := S1x256x768) hz3, View.ld_unit_zero (S := S1x768x1024) hz3,
    View.ld_unit_zero (S := S1x1x1024) hz3, View.ld_unit_zero (S := S256x1024) hz2]

/-- The LAST reduction step leaves the accumulator at the same accumulated value -/
theorem scratch_C (c : Dev nD) (i : grid0.Coords) (a3 : Memref sig .tc .vmem S1x256x768 .f32) (h3 : a3.IsWhole) (a4 : Memref sig .tc .vmem S1x768x1024 .f32) (h4 : a4.IsWhole) (a5 : Memref sig .tc .vmem S1x1x1024 .f32) (h5 : a5.IsWhole) (a6 : Memref sig .tc .vmem S1x256x1024 .f32) (h6 : a6.IsWhole) (a7 : Memref sig .tc .vmem S256x1024 .f32) (h7 : a7.IsWhole) (hc0 : ¬cond0_0 i) (hc1 : cond0_1 i) (x0 : Vec F S1x256x768 .f32) (x1 : Vec F S1x768x1024 .f32) (x2 : Vec F S1x1x1024 .f32) (xs0 : Vec F S256x1024 .f32) :
    sout0_C_0 c i a3 h3 a4 h4 a5 h5 a6 h6 a7 h7 hc0 hc1 x0 x1 x2 xs0 = k0_pay2 x2 x1 x0 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S256x1024) hz2]
  simp only [View.readAt_eq_ld, h3.read_unread, h4.read_unread, h5.read_unread, h7.read_unread,
    View.ld_unit_zero (S := S1x256x768) hz3, View.ld_unit_zero (S := S1x768x1024) hz3,
    View.ld_unit_zero (S := S1x1x1024) hz3, View.ld_unit_zero (S := S256x1024) hz2]

/-- and copies it, read back from the accumulator, into the output block. -/
theorem output_C (c : Dev nD) (i : grid0.Coords) (a3 : Memref sig .tc .vmem S1x256x768 .f32) (h3 : a3.IsWhole) (a4 : Memref sig .tc .vmem S1x768x1024 .f32) (h4 : a4.IsWhole) (a5 : Memref sig .tc .vmem S1x1x1024 .f32) (h5 : a5.IsWhole) (a6 : Memref sig .tc .vmem S1x256x1024 .f32) (h6 : a6.IsWhole) (a7 : Memref sig .tc .vmem S256x1024 .f32) (h7 : a7.IsWhole) (hc0 : ¬cond0_0 i) (hc1 : cond0_1 i) (x0 : Vec F S1x256x768 .f32) (x1 : Vec F S1x768x1024 .f32) (x2 : Vec F S1x1x1024 .f32) (xs0 : Vec F S256x1024 .f32) :
    out0_C_3 c i a3 h3 a4 h4 a5 h5 a6 h6 a7 h7 hc0 hc1 x0 x1 x2 xs0 = k0_pay3 (k0_pay2 x2 x1 x0 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S1x256x1024) hz3, View.readCov_unit_zero (S := S256x1024) _ hz2]
  simp only [View.readAt_eq_ld, h3.read_unread, h4.read_unread, h5.read_unread, h7.read_unread,
    View.ld_unit_zero (S := S1x256x768) hz3, View.ld_unit_zero (S := S1x768x1024) hz3,
    View.ld_unit_zero (S := S1x1x1024) hz3, View.ld_unit_zero (S := S256x1024) hz2]

/-- The FIRST reduction step stores the zero block, reads it back, and leaves the accumulated value over it:
    whatever the accumulator held before is gone. -/
theorem scratch_A (c : Dev nD) (i : grid0.Coords) (a3 : Memref sig .tc .vmem S1x256x768 .f32) (h3 : a3.IsWhole) (a4 : Memref sig .tc .vmem S1x768x1024 .f32) (h4 : a4.IsWhole) (a5 : Memref sig .tc .vmem S1x1x1024 .f32) (h5 : a5.IsWhole) (a6 : Memref sig .tc .vmem S1x256x1024 .f32) (h6 : a6.IsWhole) (a7 : Memref sig .tc .vmem S256x1024 .f32) (h7 : a7.IsWhole) (hc0 : cond0_0 i) (hc1 : ¬cond0_1 i) (x0 : Vec F S1x256x768 .f32) (x1 : Vec F S1x768x1024 .f32) (x2 : Vec F S1x1x1024 .f32) :
    sout0_A_0 c i a3 h3 a4 h4 a5 h5 a6 h6 a7 h7 hc0 hc1 x0 x1 x2 = k0_pay2 x2 x1 x0 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S256x1024) hz2, View.readCov_unit_zero (S := S256x1024) _ hz2]
  simp only [View.readAt_eq_ld, h3.read_unread, h4.read_unread, h5.read_unread,
    View.ld_unit_zero (S := S1x256x768) hz3, View.ld_unit_zero (S := S1x768x1024) hz3,
    View.ld_unit_zero (S := S1x1x1024) hz3]

end Cert.KernelIdeal.Unpool

end
-- ==== Proof.Payload.lean ====
/-
  The body's arithmetic at the ideal values, read at an index.

  One grid point (b, n, k) loads a [256, 768] block of the padded features, a [768, 1024] block of the padded
  membership matrix, the matching [1, 1024] row of the padded occurrence counts, and the [256, 1024] accumulator.
  It stores back  acc + feat · (mat / occ),  the quotient taken column by column: entry (p, q) of the result is

      acc (p, q) + ∑ r < 768, feat (p, r) * (mat (r, q) / occ (q)).

  The two roundings to bf16 on the way into the product are the identity on the extended reals, and a matrix product
  into the zero splat is the plain sum of products.
-/
import proofs.«133366_j34256659153543_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Unpool

open Cert.KernelIdeal Cert.KernelIdeal.Gen Idealize.ShloMosaic Idealize.ShloMosaic.ValueIdx

/-! ## The product's operand indices -/

/-- Row of the left operand: the output's row. -/
theorem lhs_row (i : S256x1024.Idx) (q : dot_S256x768_S768x1024_S256x1024_1_0_0_1_n_n.contr.Idx) :
    (dot_S256x768_S768x1024_S256x1024_1_0_0_1_n_n.lhsIdx i q 0).val = (i 0).val := by
  unfold DotDims.lhsIdx
  rw [dif_neg (show ¬(0 : Fin S256x768.rank) ∈ dot_S256x768_S768x1024_S256x1024_1_0_0_1_n_n.lhsBatch by decide),
    dif_pos (show (0 : Fin S256x768.rank) ∈ dot_S256x768_S768x1024_S256x1024_1_0_0_1_n_n.lhsNonContracting by decide)]
  rfl

/-- Column of the left operand: the summation index. -/
theorem lhs_col (i : S256x1024.Idx) (q : dot_S256x768_S768x1024_S256x1024_1_0_0_1_n_n.contr.Idx) :
    (dot_S256x768_S768x1024_S256x1024_1_0_0_1_n_n.lhsIdx i q 1).val = (q ⟨0, by decide⟩).val :=
  dot_S256x768_S768x1024_S256x1024_1_0_0_1_n_n.lhsIdx_val_of_single rfl i q

/-- Row of the right operand: the summation index. -/
theorem rhs_row (i : S256x1024.Idx) (q : dot_S256x768_S768x1024_S256x1024_1_0_0_1_n_n.contr.Idx) :
    (dot_S256x768_S768x1024_S256x1024_1_0_0_1_n_n.rhsIdx i q 0).val = (q ⟨0, by decide⟩).val :=
  dot_S256x768_S768x1024_S256x1024_1_0_0_1_n_n.rhsIdx_val_of_single rfl i q

/-- Column of the right operand: the output's column. -/
theorem rhs_col (i : S256x1024.Idx) (q : dot_S256x768_S768x1024_S256x1024_1_0_0_1_n_n.contr.Idx) :
    (dot_S256x768_S768x1024_S256x1024_1_0_0_1_n_n.rhsIdx i q 1).val = (i 1).val := by
  unfold DotDims.rhsIdx
  rw [dif_neg (show ¬(1 : Fin S768x1024.rank) ∈ dot_S256x768_S768x1024_S256x1024_1_0_0_1_n_n.rhsBatch by decide),
    dif_pos (show (1 : Fin S768x1024.rank) ∈ dot_S256x768_S768x1024_S256x1024_1_0_0_1_n_n.rhsNonContracting by decide)]
  rfl

/-- A [256, 768] by [768, 1024] product into the zero splat, at (p, q): the sum over r of l (p, r) * r (r, q). -/
theorem product_apply (l : FVec Ideal S256x768 .bf16) (r : FVec Ideal S768x1024 .bf16) (p : Fin 256) (q : Fin 1024) :
    matmul dot_S256x768_S768x1024_S256x1024_1_0_0_1_n_n none l r (constant (F := Ideal) S256x1024 .f32 0x00000000#32) (ix2 p q)
      = ∑ k : Fin 768, l (ix2 p k) * r (ix2 k q) := by
  refine (Ideal.matmul_constant_zero_apply dot_S256x768_S768x1024_S256x1024_1_0_0_1_n_n none l r (ix2 p q)).trans ?_
  rw [← Equiv.sum_comp (ValueIdx.contrEquiv1 dot_S256x768_S768x1024_S256x1024_1_0_0_1_n_n 768 rfl rfl).symm]
  refine Finset.sum_congr rfl fun k _ => ?_
  have hk := ValueIdx.contrEquiv1_symm_val dot_S256x768_S768x1024_S256x1024_1_0_0_1_n_n 768 rfl rfl k
  have el : dot_S256x768_S768x1024_S256x1024_1_0_0_1_n_n.lhsIdx (ix2 p q)
      ((ValueIdx.contrEquiv1 dot_S256x768_S768x1024_S256x1024_1_0_0_1_n_n 768 rfl rfl).symm k) = ix2 p k :=
    funext fun a => Fin.ext (by
      match a with
      | ⟨0, _⟩ => exact lhs_row _ _
      | ⟨1, _⟩ => exact (lhs_col _ _).trans hk)
  have er : dot_S256x768_S768x1024_S256x1024_1_0_0_1_n_n.rhsIdx (ix2 p q)
      ((ValueIdx.contrEquiv1 dot_S256x768_S768x1024_S256x1024_1_0_0_1_n_n 768 rfl rfl).symm k) = ix2 k q :=
    funext fun a => Fin.ext (by
      match a with
      | ⟨0, _⟩ => exact (rhs_row _ _).trans hk
      | ⟨1, _⟩ => exact rhs_col _ _)
  rw [el, er]

/-! ## The three stored values -/

/-- The block stored at the first reduction step is zero everywhere. -/
theorem zero_block_apply (j : S256x1024.Idx) : k0_pay1 (F := Ideal) j = 0 := by
  unfold k0_pay1
  rw [shapeCast_self]
  exact Ideal.ofBits_zero_f32

/-- The accumulator's new value at (p, q): the old one plus the block product's entry. -/
theorem accumulate_apply (occ : Vec Ideal S1x1x1024 .f32) (mat : Vec Ideal S1x768x1024 .f32) (feat : Vec Ideal S1x256x768 .f32)
    (acc : Vec Ideal S256x1024 .f32) (p : Fin 256) (q : Fin 1024) :
    k0_pay2 (F := Ideal) occ mat feat acc (ix2 p q)
      = acc (ix2 p q) + ∑ r : Fin 768, feat (ix3 (0 : Fin 1) p r)
          * Ideal.div (mat (ix3 (0 : Fin 1) r q)) (occ (ix3 (0 : Fin 1) (0 : Fin 1) q)) := by
  unfold k0_pay2
  rw [shapeCast_self]
  refine (addf_apply _ _ (ix2 p q)).trans ?_
  refine congrArg (acc (ix2 p q) + ·) ?_
  refine (product_apply _ _ p q).trans ?_
  refine Finset.sum_congr rfl fun r _ => ?_
  have hf : (shapeCast S256x768 feat shapeCasts_S1x256x768_S256x768) (ix2 p r) = feat (ix3 (0 : Fin 1) p r) :=
    shapeCast_1ab_ab_apply feat shapeCasts_S1x256x768_S256x768 p r
  have hm : (shapeCast S768x1024 mat shapeCasts_S1x768x1024_S768x1024) (ix2 r q) = mat (ix3 (0 : Fin 1) r q) :=
    shapeCast_1ab_ab_apply mat shapeCasts_S1x768x1024_S768x1024 r q
  have ho : (broadcastTo S768x1024 (shapeCast S1x1024 occ shapeCasts_S1x1x1024_S1x1024) broadcasts_S1x1024_S768x1024) (ix2 r q)
      = occ (ix3 (0 : Fin 1) (0 : Fin 1) q) :=
    (broadcastTo_1b_ab_apply _ broadcasts_S1x1024_S768x1024 r q).trans
      (shapeCast_1ab_ab_apply occ shapeCasts_S1x1x1024_S1x1024 (0 : Fin 1) q)
  show (shapeCast S256x768 feat shapeCasts_S1x256x768_S256x768) (ix2 p r)
      * Ideal.div ((shapeCast S768x1024 mat shapeCasts_S1x768x1024_S768x1024) (ix2 r q))
          ((broadcastTo S768x1024 (shapeCast S1x1024 occ shapeCasts_S1x1x1024_S1x1024) broadcasts_S1x1024_S768x1024) (ix2 r q)) = _
  rw [hf, hm, ho]

/-- The block written to the output at the last reduction step is the accumulator, entry for entry. -/
theorem emit_apply (acc : Vec Ideal S256x1024 .f32) (u : Fin 1) (p : Fin 256) (q : Fin 1024) :
    k0_pay3 (F := Ideal) acc (ix3 u p q) = acc (ix2 p q) := by
  unfold k0_pay3
  exact shapeCast_ab_1ab_apply acc shapeCasts_S256x1024_S1x256x1024 u p q

end Cert.KernelIdeal.Unpool

end
-- ==== Proof.Blocks.lean ====
/-
  The windows' blocks as entries of the arrays.

  Grid point t = (b · 9 + n) · 6 + k stands for batch b, column block n, summation block k. There the kernel sees
    the feature block   rows all 256,            summation positions 768 k .. 768 k + 767          of batch b,
    the matrix block    summation positions the same, columns 1024 n .. 1024 n + 1023              of batch b,
    the count block     columns 1024 n .. 1024 n + 1023                                            of batch b,
  and the output block is columns 1024 n .. 1024 n + 1023 of batch b. The index maps are decided once over the 216
  points; a block's entry is the array's entry at block index × block size + the coordinate inside the block.
-/
import proofs.«133366_j34256659153543_2_alg».proof.Proof.Gen.KernelIdeal.Frame.Runs
import Idealize.ShloMosaic.Lib.Pipeline.Value
import Idealize.ShloMosaic.Lib.ValueIdx

noncomputable section

namespace Cert.KernelIdeal.Unpool

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The index maps over the grid -/

theorem idx_feat : ∀ t : Fin cfg0.N, win0_0.index t (0 : Fin 3) = t.val / 54 ∧ win0_0.index t (1 : Fin 3) = 0
    ∧ win0_0.index t (2 : Fin 3) = t.val % 6 :=
  (by decide +kernel : ∀ t : Fin grid0.N, win0_0.index t (0 : Fin 3) = t.val / 54 ∧ win0_0.index t (1 : Fin 3) = 0
    ∧ win0_0.index t (2 : Fin 3) = t.val % 6)

theorem idx_mat : ∀ t : Fin cfg0.N, win0_1.index t (0 : Fin 3) = t.val / 54 ∧ win0_1.index t (1 : Fin 3) = t.val % 6
    ∧ win0_1.index t (2 : Fin 3) = t.val / 6 % 9 :=
  (by decide +kernel : ∀ t : Fin grid0.N, win0_1.index t (0 : Fin 3) = t.val / 54 ∧ win0_1.index t (1 : Fin 3) = t.val % 6
    ∧ win0_1.index t (2 : Fin 3) = t.val / 6 % 9)

theorem idx_occ : ∀ t : Fin cfg0.N, win0_2.index t (0 : Fin 3) = t.val / 54 ∧ win0_2.index t (1 : Fin 3) = 0
    ∧ win0_2.index t (2 : Fin 3) = t.val / 6 % 9 :=
  (by decide +kernel : ∀ t : Fin grid0.N, win0_2.index t (0 : Fin 3) = t.val / 54 ∧ win0_2.index t (1 : Fin 3) = 0
    ∧ win0_2.index t (2 : Fin 3) = t.val / 6 % 9)

theorem idx_out : ∀ t : Fin cfg0.N, win0_3.index t (0 : Fin 3) = t.val / 54 ∧ win0_3.index t (1 : Fin 3) = 0
    ∧ win0_3.index t (2 : Fin 3) = t.val / 6 % 9 :=
  (by decide +kernel : ∀ t : Fin grid0.N, win0_3.index t (0 : Fin 3) = t.val / 54 ∧ win0_3.index t (1 : Fin 3) = 0
    ∧ win0_3.index t (2 : Fin 3) = t.val / 6 % 9)

/-! ## The input blocks, entry by entry -/

/-- Entry (p, r) of the feature block at point t is the padded features at (b, p, 768 k + r). -/
theorem feat_block (c : Dev nD) (t : Fin cfg0.N) (u : Fin 1) (p : Fin 256) (r : Fin 768) (b : Fin 4) (j : Fin 4608)
    (hb : b.val = t.val / 54) (hj : j.val = 768 * (t.val % 6) + r.val) :
    (iblk m c 0 t : Vec F S1x256x768 .f32) (ix3 u p r) = (V m c main_v0 : Vec F S4x256x4608 .f32) (ix3 b p j) := by
  obtain ⟨e0, e1, e2⟩ := idx_feat t
  have hu : u.val = 0 := by have := u.isLt; omega
  unfold iblk
  rw [View.read_apply]
  show V m c main_v0 _ = V m c main_v0 _
  refine congrArg (V m c main_v0) (funext fun a => Fin.ext ?_)
  match a with
  | ⟨0, _⟩ => show win0_0.index t (0 : Fin 3) * 1 + 1 * u.val = b.val; rw [e0]; omega
  | ⟨1, _⟩ => show win0_0.index t (1 : Fin 3) * 256 + 1 * p.val = p.val; rw [e1]; omega
  | ⟨2, _⟩ => show win0_0.index t (2 : Fin 3) * 768 + 1 * r.val = j.val; rw [e2]; omega

/-- Entry (r, q) of the matrix block at point t is the padded matrix at (b, 768 k + r, 1024 n + q). -/
theorem mat_block (c : Dev nD) (t : Fin cfg0.N) (u : Fin 1) (r : Fin 768) (q : Fin 1024) (b : Fin 4) (j : Fin 4608)
    (col : Fin 9216) (hb : b.val = t.val / 54) (hj : j.val = 768 * (t.val % 6) + r.val)
    (hcol : col.val = 1024 * (t.val / 6 % 9) + q.val) :
    (iblk m c 1 t : Vec F S1x768x1024 .f32) (ix3 u r q) = (V m c main_v1 : Vec F S4x4608x9216 .f32) (ix3 b j col) := by
  obtain ⟨e0, e1, e2⟩ := idx_mat t
  have hu : u.val = 0 := by have := u.isLt; omega
  unfold iblk
  rw [View.read_apply]
  show V m c main_v1 _ = V m c main_v1 _
  refine congrArg (V m c main_v1) (funext fun a => Fin.ext ?_)
  match a with
  | ⟨0, _⟩ => show win0_1.index t (0 : Fin 3) * 1 + 1 * u.val = b.val; rw [e0]; omega
  | ⟨1, _⟩ => show win0_1.index t (1 : Fin 3) * 768 + 1 * r.val = j.val; rw [e1]; omega
  | ⟨2, _⟩ => show win0_1.index t (2 : Fin 3) * 1024 + 1 * q.val = col.val; rw [e2]; omega

/-- Entry q of the count block at point t is the padded counts at (b, 0, 1024 n + q). -/
theorem occ_block (c : Dev nD) (t : Fin cfg0.N) (u v : Fin 1) (q : Fin 1024) (b : Fin 4) (col : Fin 9216)
    (hb : b.val = t.val / 54) (hcol : col.val = 1024 * (t.val / 6 % 9) + q.val) :
    (iblk m c 2 t : Vec F S1x1x1024 .f32) (ix3 u v q) = (V m c main_v3 : Vec F S4x1x9216 .f32) (ix3 b (0 : Fin 1) col) := by
  obtain ⟨e0, e1, e2⟩ := idx_occ t
  have hu : u.val = 0 := by have := u.isLt; omega
  have hv : v.val = 0 := by have := v.isLt; omega
  unfold iblk
  rw [View.read_apply]
  show V m c main_v3 _ = V m c main_v3 _
  refine congrArg (V m c main_v3) (funext fun a => Fin.ext ?_)
  match a with
  | ⟨0, _⟩ => show win0_2.index t (0 : Fin 3) * 1 + 1 * u.val = b.val; rw [e0]; omega
  | ⟨1, _⟩ => show win0_2.index t (1 : Fin 3) * 1 + 1 * v.val = 0; rw [e1]; omega
  | ⟨2, _⟩ => show win0_2.index t (2 : Fin 3) * 1024 + 1 * q.val = col.val; rw [e2]; omega

end Cert.KernelIdeal.Unpool

end
-- ==== Proof.Spec.lean ====
/-
  The result as one function of the three arguments, and the two facts about finite sums that join the kernel's
  arrangement of it to the reference's.

  With feat : [4, 256, 4560], mat : [4, 4560, 9120], occ : [4, 9120], both programs compute

      out (b, p, c) = ∑ k < 4560, feat (b, p, k) * (mat (b, k, c) / occ (b, c)).

  The kernel pads the summation axis with zeros to 4608 = 6 · 768 and the column axis to 9216 = 9 · 1024, walks the
  summation axis in six blocks of 768 adding each block's partial product into an accumulator, and cuts the padded
  columns away at the end. So the accumulator after block k holds the sum over the first 768 (k + 1) padded indices
  (`sum_extend`), and the whole padded sum is the unpadded one because every summand past 4560 is 0 * x = 0 — which
  holds for EVERY extended real x, so nothing here asks the inputs to be finite (`padded_sum`).
-/
import Idealize.ShloMosaic.PureOps.Ideal
import Idealize.ShloMosaic.Lib.ValueIdx

noncomputable section

namespace Cert.Unpool

open Idealize.ShloMosaic Idealize.ShloMosaic.ValueIdx

/-- The result at (b, p, c): the sum over the 4560 source edges of the feature times the membership weight divided
    by the target's occurrence count. -/
def result (feat : FVec Ideal ⟨3, ![4, 256, 4560]⟩ .f32) (mat : FVec Ideal ⟨3, ![4, 4560, 9120]⟩ .f32)
    (occ : FVec Ideal ⟨2, ![4, 9120]⟩ .f32) (b : Fin 4) (p : Fin 256) (c : Fin 9120) : EReal :=
  ∑ k : Fin 4560, feat (ix3 b p k) * Ideal.div (mat (ix3 b k c)) (occ (ix2 b c))

/-- The result as an array over [4, 256, 9120]. -/
def resultArr (feat : FVec Ideal ⟨3, ![4, 256, 4560]⟩ .f32) (mat : FVec Ideal ⟨3, ![4, 4560, 9120]⟩ .f32)
    (occ : FVec Ideal ⟨2, ![4, 9120]⟩ .f32) : FVec Ideal ⟨3, ![4, 256, 9120]⟩ .f32 := fun i =>
  result feat mat occ ⟨(i 0).val, (i 0).isLt⟩ ⟨(i 1).val, (i 1).isLt⟩ ⟨(i 2).val, (i 2).isLt⟩

theorem resultArr_apply (feat : FVec Ideal ⟨3, ![4, 256, 4560]⟩ .f32) (mat : FVec Ideal ⟨3, ![4, 4560, 9120]⟩ .f32)
    (occ : FVec Ideal ⟨2, ![4, 9120]⟩ .f32) (b : Fin 4) (p : Fin 256) (c : Fin 9120) :
    resultArr feat mat occ (ix3 b p c) = result feat mat occ b p c := rfl

/-- The summand at position j of the PADDED summation axis, for row p and padded column c of batch b; zero past
    the axis (so that partial sums can be taken over initial segments of the naturals). -/
def summand (Fp : FVec Ideal ⟨3, ![4, 256, 4608]⟩ .f32) (Mp : FVec Ideal ⟨3, ![4, 4608, 9216]⟩ .f32)
    (Op : FVec Ideal ⟨3, ![4, 1, 9216]⟩ .f32) (b : Fin 4) (p : Fin 256) (c : Fin 9216) (j : ℕ) : EReal :=
  if h : j < 4608 then Fp (ix3 b p ⟨j, h⟩) * Ideal.div (Mp (ix3 b ⟨j, h⟩ c)) (Op (ix3 b (0 : Fin 1) c)) else 0

theorem summand_of_lt (Fp : FVec Ideal ⟨3, ![4, 256, 4608]⟩ .f32) (Mp : FVec Ideal ⟨3, ![4, 4608, 9216]⟩ .f32)
    (Op : FVec Ideal ⟨3, ![4, 1, 9216]⟩ .f32) (b : Fin 4) (p : Fin 256) (c : Fin 9216) (j : ℕ) (h : j < 4608) :
    summand Fp Mp Op b p c j = Fp (ix3 b p ⟨j, h⟩) * Ideal.div (Mp (ix3 b ⟨j, h⟩ c)) (Op (ix3 b (0 : Fin 1) c)) :=
  dif_pos h

/-- One more block of 768: the sum over the first 768 k positions plus the block's 768 summands is the sum over the
    first 768 (k + 1). -/
theorem sum_extend (f : ℕ → EReal) (k : ℕ) :
    (∑ j ∈ Finset.range (768 * k), f j) + ∑ r : Fin 768, f (768 * k + r.val)
      = ∑ j ∈ Finset.range (768 * (k + 1)), f j := by
  have e : 768 * (k + 1) = 768 * k + 768 := by omega
  rw [e, Finset.sum_range_add]
  exact congrArg (_ + ·) (Finset.sum_range (fun x => f (768 * k + x))).symm

/-- The first block, onto the zero accumulator. -/
theorem sum_first (f : ℕ → EReal) :
    (0 : EReal) + ∑ r : Fin 768, f (768 * 0 + r.val) = ∑ j ∈ Finset.range (768 * (0 + 1)), f j := by
  rw [← sum_extend f 0, Nat.mul_zero, Finset.range_zero, Finset.sum_empty]

/-- The padded sum is the unpadded one. The padded features are the features below 4560 and ZERO from there on; the
    padded matrix and counts are the arguments at the unpadded positions; so the 48 extra summands are each 0 * x = 0
    (whatever extended real the padded quotient x is) and the first 4560 are the reference's. -/
theorem padded_sum (feat : FVec Ideal ⟨3, ![4, 256, 4560]⟩ .f32) (mat : FVec Ideal ⟨3, ![4, 4560, 9120]⟩ .f32)
    (occ : FVec Ideal ⟨2, ![4, 9120]⟩ .f32)
    (Fp : FVec Ideal ⟨3, ![4, 256, 4608]⟩ .f32) (Mp : FVec Ideal ⟨3, ![4, 4608, 9216]⟩ .f32)
    (Op : FVec Ideal ⟨3, ![4, 1, 9216]⟩ .f32)
    (hF : ∀ (b : Fin 4) (p : Fin 256) (j : Fin 4608) (h : j.val < 4560), Fp (ix3 b p j) = feat (ix3 b p ⟨j.val, h⟩))
    (hF0 : ∀ (b : Fin 4) (p : Fin 256) (j : Fin 4608), ¬ j.val < 4560 → Fp (ix3 b p j) = 0)
    (hM : ∀ (b : Fin 4) (j : Fin 4608) (c : Fin 9216) (hj : j.val < 4560) (hc : c.val < 9120),
      Mp (ix3 b j c) = mat (ix3 b ⟨j.val, hj⟩ ⟨c.val, hc⟩))
    (hO : ∀ (b : Fin 4) (c : Fin 9216) (hc : c.val < 9120), Op (ix3 b (0 : Fin 1) c) = occ (ix2 b ⟨c.val, hc⟩))
    (b : Fin 4) (p : Fin 256) (c : Fin 9216) (hc : c.val < 9120) :
    ∑ j ∈ Finset.range 4608, summand Fp Mp Op b p c j = result feat mat occ b p ⟨c.val, hc⟩ := by
  have e : (4608 : ℕ) = 4560 + 48 := by norm_num
  rw [e, Finset.sum_range_add]
  have htail : ∑ x ∈ Finset.range 48, summand Fp Mp Op b p c (4560 + x) = 0 := by
    refine Finset.sum_eq_zero fun x hx => ?_
    have hx' : x < 48 := Finset.mem_range.mp hx
    have hlt : 4560 + x < 4608 := by omega
    rw [summand_of_lt Fp Mp Op b p c _ hlt, hF0 b p ⟨4560 + x, hlt⟩ (by show ¬ 4560 + x < 4560; omega), zero_mul]
  rw [htail, add_zero, Finset.sum_range]
  unfold result
  refine Finset.sum_congr rfl fun k _ => ?_
  have hk : k.val < 4608 := by have := k.isLt; omega
  rw [summand_of_lt Fp Mp Op b p c _ hk, hF b p ⟨k.val, hk⟩ k.isLt, hM b ⟨k.val, hk⟩ c k.isLt hc, hO b c hc]

end Cert.Unpool

end
-- ==== Proof.Fold.lean ====
/-
  The accumulator along the grid.

  For fixed batch b and column block n the six points (b, n, 0..5) are consecutive. At k = 0 the accumulator is
  reset and receives the first block product; at each later k it receives the next one on top of what the point
  before left. So after point (b, n, k) its entry (p, q) is the sum of the padded summands of row p and column
  1024 n + q over the first 768 (k + 1) positions of the summation axis — by induction on the point, the reset
  starting each group of six afresh. At k = 5 that is the whole padded sum, and the output block is a copy of it.
-/
import proofs.«133366_j34256659153543_2_alg».proof.Proof.Gen.KernelIdeal.Frame
import proofs.«133366_j34256659153543_2_alg».proof.Proof.Pieces
import proofs.«133366_j34256659153543_2_alg».proof.Proof.Payload
import proofs.«133366_j34256659153543_2_alg».proof.Proof.Blocks
import proofs.«133366_j34256659153543_2_alg».proof.Proof.Spec

noncomputable section

namespace Cert.KernelIdeal.Unpool

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The accumulator's recursion, as values -/

/-- At the first step of a group the accumulator ends at the first block product over the zero block. -/
theorem scratch_first (c : Dev nD) (t : Fin cfg0.N) (h0 : t.val % 6 = 0) :
    (outsAt0 m c t.val t.isLt).2
      = k0_pay2 (F := Ideal) (iblk m c 2 t) (iblk m c 1 t) (iblk m c 0 t) (k0_pay1 (F := Ideal)) := by
  have h1 : ¬ t.val % 6 = 5 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (iblk m c 0 t) (iblk m c 1 t) (iblk m c 2 t)

/-- At every later step it ends at that step's block product over what the point before left. -/
theorem scratch_next (c : Dev nD) (n : ℕ) (h : n + 1 < cfg0.N) (h0 : ¬ (n + 1) % 6 = 0) :
    (outsAt0 m c (n + 1) h).2
      = k0_pay2 (F := Ideal) (iblk m c 2 ⟨n + 1, h⟩) (iblk m c 1 ⟨n + 1, h⟩) (iblk m c 0 ⟨n + 1, h⟩) (outsAt0 m c n (Nat.lt_of_succ_lt h)).2 := by
  by_cases h1 : (n + 1) % 6 = 5
  · rw [outsAt0_C m c ⟨n + 1, h⟩ h0 h1]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- At the last step of a group the output block is the accumulator's final contents, copied. -/
theorem output_last (c : Dev nD) (t : Fin cfg0.N) (h1 : t.val % 6 = 5) :
    (outsAt0 m c t.val t.isLt).1 = k0_pay3 (F := Ideal) (outsAt0 m c t.val t.isLt).2 := by
  have h0 : ¬ t.val % 6 = 0 := by omega
  rw [outsAt0_C m c t h0 h1]
  dsimp only
  exact (output_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t)
      (outsAt0 m c (t.val - 1) (Nat.lt_of_le_of_lt (Nat.sub_le _ _) t.isLt)).2).trans
    (congrArg (k0_pay3 (F := Ideal)) (scratch_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (iblk m c 0 t) (iblk m c 1 t) (iblk m c 2 t)
      (outsAt0 m c (t.val - 1) (Nat.lt_of_le_of_lt (Nat.sub_le _ _) t.isLt)).2).symm)

/-! ## One step as a sum of padded summands -/

/-- The padded summand over the arrays the region finds on core c. -/
def summandAt (c : Dev nD) (b : Fin 4) (p : Fin 256) (col : Fin 9216) (j : ℕ) : EReal :=
  Cert.Unpool.summand (V (F := Ideal) m c main_v0) (V (F := Ideal) m c main_v1) (V (F := Ideal) m c main_v3) b p col j

/-- One step at point t = (b, n, k) adds to entry (p, q) the 768 summands of row p and column 1024 n + q at
    positions 768 k .. 768 k + 767. -/
theorem step_apply (c : Dev nD) (t : Fin cfg0.N) (acc : Vec Ideal S256x1024 .f32) (p : Fin 256) (q : Fin 1024)
    (b : Fin 4) (col : Fin 9216) (hb : b.val = t.val / 54) (hcol : col.val = 1024 * (t.val / 6 % 9) + q.val) :
    k0_pay2 (F := Ideal) (iblk m c 2 t) (iblk m c 1 t) (iblk m c 0 t) acc (ix2 p q)
      = acc (ix2 p q) + ∑ r : Fin 768, summandAt m c b p col (768 * (t.val % 6) + r.val) := by
  refine (accumulate_apply (iblk m c 2 t) (iblk m c 1 t) (iblk m c 0 t) acc p q).trans ?_
  refine congrArg (acc (ix2 p q) + ·) (Finset.sum_congr rfl fun r _ => ?_)
  have hlt : 768 * (t.val % 6) + r.val < 4608 := by have := r.isLt; omega
  unfold summandAt
  rw [Cert.Unpool.summand_of_lt _ _ _ b p col _ hlt]
  rw [feat_block m c t (0 : Fin 1) p r b ⟨768 * (t.val % 6) + r.val, hlt⟩ hb rfl,
    mat_block m c t (0 : Fin 1) r q b ⟨768 * (t.val % 6) + r.val, hlt⟩ col hb rfl hcol,
    occ_block m c t (0 : Fin 1) (0 : Fin 1) q b col hb hcol]

/-! ## The accumulator after each point -/

/-- After point (b, n, k) the accumulator's entry (p, q) is the partial padded sum over the first 768 (k + 1)
    positions, for row p and column 1024 n + q of batch b. -/
theorem scratch_sum (c : Dev nD) : ∀ (n : ℕ) (h : n < cfg0.N) (p : Fin 256) (q : Fin 1024) (b : Fin 4) (col : Fin 9216),
    b.val = n / 54 → col.val = 1024 * (n / 6 % 9) + q.val →
    (outsAt0 m c n h).2 (ix2 p q) = ∑ j ∈ Finset.range (768 * (n % 6 + 1)), summandAt m c b p col j
  | 0, h, p, q, b, col, hb, hcol => by
    rw [scratch_first m c ⟨0, h⟩ rfl]
    refine (step_apply m c ⟨0, h⟩ (k0_pay1 (F := Ideal)) p q b col hb hcol).trans ?_
    rw [zero_block_apply]
    exact Cert.Unpool.sum_first _
  | n + 1, h, p, q, b, col, hb, hcol => by
    by_cases h0 : (n + 1) % 6 = 0
    · rw [scratch_first m c ⟨n + 1, h⟩ h0]
      refine (step_apply m c ⟨n + 1, h⟩ (k0_pay1 (F := Ideal)) p q b col hb hcol).trans ?_
      rw [zero_block_apply]
      show (0 : EReal) + ∑ r : Fin 768, summandAt m c b p col (768 * ((n + 1) % 6) + r.val) = _
      rw [h0]
      exact Cert.Unpool.sum_first _
    · have e3 : (n + 1) % 6 = n % 6 + 1 := by omega
      rw [scratch_next m c n h h0]
      refine (step_apply m c ⟨n + 1, h⟩ (outsAt0 m c n (Nat.lt_of_succ_lt h)).2 p q b col hb hcol).trans ?_
      rw [scratch_sum c n (Nat.lt_of_succ_lt h) p q b col (by omega) (by omega)]
      show _ + ∑ r : Fin 768, summandAt m c b p col (768 * ((n + 1) % 6) + r.val) = _
      rw [e3]
      exact Cert.Unpool.sum_extend _ (n % 6 + 1)

end Cert.KernelIdeal.Unpool

end
-- ==== Proof.Host.lean ====
/-
  The three arrays the kernel region finds, as functions of the arguments.

  Before the region the program pads the features with zeros along the summation axis (4560 → 4608), pads the
  membership matrix with zeros along the summation axis and the column axis (4560 → 4608, 9120 → 9216), pads the
  occurrence counts with ones along the column axis (9120 → 9216) and views them as [4, 1, 9216]. Read at an index:
  inside the original extents each padded array is the argument there; the padded features are ZERO past 4560.
  (What the padded matrix and counts hold in their padding is never needed: there the feature factor is zero, or
  the column is cut away at the end.)
-/
import proofs.«133366_j34256659153543_2_alg».proof.Proof.Gen.KernelIdeal.Frame.Runs
import Idealize.ShloMosaic.Lib.Pipeline.Value
import Idealize.ShloMosaic.Lib.StableHlo.Run
import Idealize.ShloMosaic.Lib.KernelVsHost
import Idealize.ShloMosaic.Lib.ValueIdx
import Idealize.ShloMosaic.Lib.ValueLayout

noncomputable section

namespace Cert.KernelIdeal.Unpool

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays at the region's entry, as terms -/

theorem feat_entry (c : Dev nD) :
    (V (F := Ideal) m c main_v0 : S4x256x4608.Idx → EReal)
      = pad S4x256x4608 ![0, 0, 0] ![0, 0, 48] ![0, 0, 0] (m ((c : Thread nD τ).loc main_arg0))
          (sitofp (F := Ideal) .f32 (constantI S_ 32 0#32)) pads_S4x256x4560_S4x256x4608_000_000_0480 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem mat_entry (c : Dev nD) :
    (V (F := Ideal) m c main_v1 : S4x4608x9216.Idx → EReal)
      = pad S4x4608x9216 ![0, 0, 0] ![0, 48, 96] ![0, 0, 0] (m ((c : Thread nD τ).loc main_arg1))
          (sitofp (F := Ideal) .f32 (constantI S_ 32 0#32)) pads_S4x4560x9120_S4x4608x9216_000_0480_0960 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem occ_entry (c : Dev nD) :
    (V (F := Ideal) m c main_v3 : S4x1x9216.Idx → EReal)
      = broadcastInDim S4x1x9216 ![0, 2] bcast_S4x9216_S4x1x9216_0_2
          (pad S4x9216 ![0, 0] ![0, 96] ![0, 0] (m ((c : Thread nD τ).loc main_arg2))
            (constant (F := Ideal) S_ .f32 0x3F800000#32) pads_S4x9120_S4x9216_000_0960 h_S_) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## Read at an index -/

/-- Below 4560 along the summation axis the padded features are the features. -/
theorem feat_inside (c : Dev nD) (b : Fin 4) (p : Fin 256) (j : Fin 4608) (h : j.val < 4560) :
    (V (F := Ideal) m c main_v0 : S4x256x4608.Idx → EReal) (ix3 b p j)
      = (m ((c : Thread nD τ).loc main_arg0) : S4x256x4560.Idx → EReal) (ix3 b p ⟨j.val, h⟩) := by
  rw [feat_entry]
  exact pad_apply_of_inside _ _ _ _ _ _ _ (ix3 b p j) (ix3 b p ⟨j.val, h⟩) (fun a => by
    match a with
    | ⟨0, _⟩ => show b.val = 0 + b.val * (0 + 1); omega
    | ⟨1, _⟩ => show p.val = 0 + p.val * (0 + 1); omega
    | ⟨2, _⟩ => show j.val = 0 + j.val * (0 + 1); omega)

/-- From 4560 on they are zero: the padding value is the integer zero converted. -/
theorem feat_outside (c : Dev nD) (b : Fin 4) (p : Fin 256) (j : Fin 4608) (h : ¬ j.val < 4560) :
    (V (F := Ideal) m c main_v0 : S4x256x4608.Idx → EReal) (ix3 b p j) = (0 : EReal) := by
  rw [feat_entry]
  refine (pad_apply_of_not_inside _ _ _ _ _ _ _ (ix3 b p j) (2 : Fin 3) (fun hin => ?_)).trans ?_
  · have h3 : (j.val - 0) / (0 + 1) < 4560 := hin.2.2
    omega
  · exact sitofp_zero (φ := .f32)

/-- Inside both original extents the padded matrix is the matrix. -/
theorem mat_inside (c : Dev nD) (b : Fin 4) (j : Fin 4608) (col : Fin 9216) (hj : j.val < 4560) (hc : col.val < 9120) :
    (V (F := Ideal) m c main_v1 : S4x4608x9216.Idx → EReal) (ix3 b j col)
      = (m ((c : Thread nD τ).loc main_arg1) : S4x4560x9120.Idx → EReal) (ix3 b ⟨j.val, hj⟩ ⟨col.val, hc⟩) := by
  rw [mat_entry]
  exact pad_apply_of_inside _ _ _ _ _ _ _ (ix3 b j col) (ix3 b ⟨j.val, hj⟩ ⟨col.val, hc⟩) (fun a => by
    match a with
    | ⟨0, _⟩ => show b.val = 0 + b.val * (0 + 1); omega
    | ⟨1, _⟩ => show j.val = 0 + j.val * (0 + 1); omega
    | ⟨2, _⟩ => show col.val = 0 + col.val * (0 + 1); omega)

/-- Below 9120 the padded counts, viewed with their unit middle axis, are the counts. -/
theorem occ_inside (c : Dev nD) (b : Fin 4) (col : Fin 9216) (hc : col.val < 9120) :
    (V (F := Ideal) m c main_v3 : S4x1x9216.Idx → EReal) (ix3 b (0 : Fin 1) col)
      = (m ((c : Thread nD τ).loc main_arg2) : S4x9120.Idx → EReal) (ix2 b ⟨col.val, hc⟩) := by
  rw [occ_entry]
  refine (broadcastInDim_apply _ bcast_S4x9216_S4x1x9216_0_2 _ (ix3 b (0 : Fin 1) col) (ix2 b col) (fun a => by
    match a with
    | ⟨0, _⟩ => show b.val = if (4 : Nat) = 1 then 0 else b.val; rw [if_neg (by decide)]
    | ⟨1, _⟩ => show col.val = if (9216 : Nat) = 1 then 0 else col.val; rw [if_neg (by decide)])).trans ?_
  exact pad_apply_of_inside _ _ _ _ _ _ _ (ix2 b col) (ix2 b ⟨col.val, hc⟩) (fun a => by
    match a with
    | ⟨0, _⟩ => show b.val = 0 + b.val * (0 + 1); omega
    | ⟨1, _⟩ => show col.val = 0 + col.val * (0 + 1); omega)

end Cert.KernelIdeal.Unpool

end
-- ==== Proof.Final.lean ====
/-
  From the output blocks to the result.

  The output window is written back exactly at the last step of each group of six points, and there its block is
  the accumulator's final contents: the whole padded sum. Point ((b · 9 + n) · 6 + 5) writes columns
  1024 n .. 1024 n + 1023 of batch b, and these 36 blocks tile the [4, 256, 9216] array, so after the region the
  array holds the padded sum at every index. The program's last operation cuts the columns back to 9120, and the
  padded sum is the unpadded one: the result.
-/
import proofs.«133366_j34256659153543_2_alg».proof.Proof.Gen.KernelIdeal.Frame
import proofs.«133366_j34256659153543_2_alg».proof.Proof.Fold
import proofs.«133366_j34256659153543_2_alg».proof.Proof.Host
import Idealize.ShloMosaic.Lib.Pipeline.Value
import Idealize.ShloMosaic.Lib.StableHlo.Run

noncomputable section

namespace Cert.KernelIdeal.Unpool

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The padded result array -/

/-- The whole padded sum for row p and padded column col of batch b. -/
def paddedAt (c : Dev nD) (b : Fin 4) (p : Fin 256) (col : Fin 9216) : EReal :=
  ∑ j ∈ Finset.range 4608, summandAt m c b p col j

/-- The same as an array over [4, 256, 9216]. -/
def padded (c : Dev nD) : S4x256x9216.Idx → EReal := fun i =>
  paddedAt m c ⟨(i 0).val, (i 0).isLt⟩ ⟨(i 1).val, (i 1).isLt⟩ ⟨(i 2).val, (i 2).isLt⟩

theorem padded_apply (c : Dev nD) (i : S4x256x9216.Idx) (b : Fin 4) (p : Fin 256) (col : Fin 9216)
    (h0 : (i 0).val = b.val) (h1 : (i 1).val = p.val) (h2 : (i 2).val = col.val) :
    padded m c i = paddedAt m c b p col := by
  unfold padded
  have e0 : (⟨(i 0).val, (i 0).isLt⟩ : Fin 4) = b := Fin.ext h0
  have e1 : (⟨(i 1).val, (i 1).isLt⟩ : Fin 256) = p := Fin.ext h1
  have e2 : (⟨(i 2).val, (i 2).isLt⟩ : Fin 9216) = col := Fin.ext h2
  rw [e0, e1, e2]

/-! ## What a flushing point writes back -/

/-- At the last step of a group the block written back is the padded array's block there. -/
theorem flushed_eq (c : Dev nD) (t : Fin cfg0.N) (hf : (cfg0.win 3).flush t = true) :
    (dats m 0 c).flushed 3 t = ((cfg0.win 3).blk t).view.read (Elt Ideal) (padded m c) := by
  have h5 : t.val % 6 = 5 := (flush0_3 t).mp hf
  obtain ⟨e0, e1, e2⟩ := idx_out t
  have hN : t.val < 216 := lt_of_lt_of_eq t.isLt (show cfg0.N = 216 from N_0)
  show (cfg0.win 3).cut (grid0.coords t) ((dats m 0 c).after 3 t) = _
  rw [after0_3, output_last m c t h5]
  have key : ∀ y : S1x256x1024.Idx, k0_pay3 (F := Ideal) (outsAt0 m c t.val t.isLt).2 y
      = padded m c (((cfg0.win 3).blk t).view.emb y) := by
    intro y
    obtain ⟨u, p, q, rfl⟩ : ∃ (u : Fin 1) (p : Fin 256) (q : Fin 1024), y = ix3 u p q := ⟨y 0, y 1, y 2, eq_ix3 y⟩
    have hu : u.val = 0 := by have := u.isLt; omega
    have hq := q.isLt
    refine (emit_apply _ u p q).trans ?_
    rw [scratch_sum m c t.val t.isLt p q ⟨t.val / 54, by omega⟩ ⟨1024 * (t.val / 6 % 9) + q.val, by omega⟩ rfl rfl]
    rw [padded_apply m c _ ⟨t.val / 54, by omega⟩ p ⟨1024 * (t.val / 6 % 9) + q.val, by omega⟩
      (by show win0_3.index t (0 : Fin 3) * 1 + 1 * u.val = t.val / 54; rw [e0]; omega)
      (by show win0_3.index t (1 : Fin 3) * 256 + 1 * p.val = p.val; rw [e1]; omega)
      (by show win0_3.index t (2 : Fin 3) * 1024 + 1 * q.val = 1024 * (t.val / 6 % 9) + q.val; rw [e2]; omega)]
    unfold paddedAt
    rw [h5]
  funext y
  exact key y

/-! ## The blocks tile the array -/

theorem mem_blk (t : Fin cfg0.N) (i : S4x256x9216.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v4).slice (win0_3.rect t)).set ↔ _
  rw [View.set_slice_whole, Rect.mem_set_unit]
  exact Iff.rfl

/-- Index (b, p, col) lies in the block written at the last step of the group of batch b and column block col / 1024. -/
theorem covered (i : S4x256x9216.Idx) :
    ∃ t : Fin cfg0.N, (cfg0.win 3).flush t = true ∧ i ∈ ((cfg0.win 3).blk t).view.set := by
  have h0 : (i 0).val < 4 := (i 0).isLt
  have h1 : (i 1).val < 256 := (i 1).isLt
  have h2 : (i 2).val < 9216 := (i 2).isLt
  have hN : cfg0.N = 216 := N_0
  obtain ⟨t, ht⟩ : ∃ t : Fin cfg0.N, t.val = ((i 0).val * 9 + (i 2).val / 1024) * 6 + 5 :=
    ⟨⟨((i 0).val * 9 + (i 2).val / 1024) * 6 + 5, by rw [hN]; omega⟩, rfl⟩
  obtain ⟨e0, e1, e2⟩ := idx_out t
  refine ⟨t, (flush0_3 t).mpr (by rw [ht]; omega), ?_⟩
  rw [mem_blk]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 256 ≤ (i 1).val ∧ (i 1).val < win0_3.index t (1 : Fin 3) * 256 + 256
    rw [e1]; omega
  | ⟨2, _⟩ =>
    show win0_3.index t (2 : Fin 3) * 1024 ≤ (i 2).val ∧ (i 2).val < win0_3.index t (2 : Fin 3) * 1024 + 1024
    rw [e2, ht]; omega

/-- So after the region the output array holds the padded sum everywhere. -/
theorem final (c : Dev nD) : (dats m 0 c).arrAt 3 cfg0.N = (padded m c : Buf (Elt Ideal) ((c : Thread nD τ).loc main_v4)) :=
  (dats m 0 c).arrAt_eq_of_cover 3 (padded m c) (flushed_eq m c) covered

/-! ## The cut, and the result -/

/-- The program's last operation leaves in its result buffer the padded array cut back to 9120 columns. -/
theorem tail_eq (c : Dev nD) :
    Pipeline.afterTail₀ cfgs (dats m) 0 (V0 m) [hostOps1] c main_v5
      = extractStridedSlice S4x256x9120 ![0, 0, 0] (padded m c) slices_S4x256x9216_S4x256x9120_0_0_0 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = padded m c :=
    (Pipeline.withArrays_arr spec0 launch0.win.arr_inj c _ _ 3).trans (final m c)
  rw [e]

/-- At (b, p, col) that is the result: the cut reads the padded array at the same coordinates, the padded sum there is
    the unpadded one. -/
theorem cut_apply (c : Dev nD) (b : Fin 4) (p : Fin 256) (col : Fin 9120) :
    extractStridedSlice S4x256x9120 ![0, 0, 0] (padded m c) slices_S4x256x9216_S4x256x9120_0_0_0 (ix3 b p col)
      = Cert.Unpool.result (m ((c : Thread nD τ).loc main_arg0)) (m ((c : Thread nD τ).loc main_arg1))
          (m ((c : Thread nD τ).loc main_arg2)) b p col := by
  have hc : col.val < 9216 := by have := col.isLt; omega
  refine (extractStridedSlice_apply _ _ _ (ix3 b p col) (ix3 b p (⟨col.val, hc⟩ : Fin 9216)) (fun a => by
    match a with
    | ⟨0, _⟩ => show b.val = 0 + b.val; omega
    | ⟨1, _⟩ => show p.val = 0 + p.val; omega
    | ⟨2, _⟩ => show col.val = 0 + col.val; omega)).trans ?_
  rw [padded_apply m c _ b p ⟨col.val, hc⟩ rfl rfl rfl]
  unfold paddedAt summandAt
  exact Cert.Unpool.padded_sum (m ((c : Thread nD τ).loc main_arg0)) (m ((c : Thread nD τ).loc main_arg1))
    (m ((c : Thread nD τ).loc main_arg2)) (V (F := Ideal) m c main_v0) (V (F := Ideal) m c main_v1) (V (F := Ideal) m c main_v3)
    (fun b p j h => feat_inside m c b p j h) (fun b p j h => feat_outside m c b p j h)
    (fun b j col hj hc => mat_inside m c b j col hj hc) (fun b col hc => occ_inside m c b col hc)
    b p ⟨col.val, hc⟩ col.isLt

/-- As whole arrays. -/
theorem cut_eq (c : Dev nD) :
    extractStridedSlice S4x256x9120 ![0, 0, 0] (padded m c) slices_S4x256x9216_S4x256x9120_0_0_0
      = Cert.Unpool.resultArr (m ((c : Thread nD τ).loc main_arg0)) (m ((c : Thread nD τ).loc main_arg1))
          (m ((c : Thread nD τ).loc main_arg2)) := by
  funext i
  obtain ⟨b, p, col, rfl⟩ : ∃ (b : Fin 4) (p : Fin 256) (col : Fin 9120), i = ix3 b p col := ⟨i 0, i 1, i 2, eq_ix3 i⟩
  rw [Cert.Unpool.resultArr_apply]
  exact cut_apply m c b p col

/-! ## The kernel's run, read -/

/-- Every weakly fair execution of the idealized kernel program ends with its result buffer at the result array of
    the arguments, and the arguments unchanged. -/
theorem run : θ_run defs (onTc (τ := τ) (main (F := Ideal))) ⟨m, fun _ => 0, ρ⟩ fun r => ∀ c : Dev nD,
      r.2.mem ((c.tc : Thread nD τ).loc main_v5)
        = Cert.Unpool.resultArr (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans ((tail_eq m c).trans (cut_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Unpool

end
-- ==== Proof.RefValue.lean ====
/-
  The reference computes `result`.

  Its four operations are: view the counts as [4, 1, 9120]; copy them down the 4560 rows; divide the membership
  matrix by that, entry by entry; contract the features with the quotient over the 4560 source edges, batch by
  batch. Read at (b, p, c) through the generated per-operation lemmas this is the sum over k of
  feat (b, p, k) * (mat (b, k, c) / occ (b, c)).
-/
import proofs.«133366_j34256659153543_2_alg».proof.Proof.Gen.ReferenceIdeal.Read
import proofs.«133366_j34256659153543_2_alg».proof.Proof.Spec

noncomputable section

namespace Cert.ReferenceIdeal.RefValue

open Cert.ReferenceIdeal Cert.ReferenceIdeal.Read Idealize.ShloMosaic Idealize.ShloMosaic.ValueIdx

theorem reference_apply (x0 : (⟨S4x256x4560, .f32⟩ : BufTy).Contents (Elt Ideal))
    (x1 : (⟨S4x4560x9120, .f32⟩ : BufTy).Contents (Elt Ideal)) (x2 : (⟨S4x9120, .f32⟩ : BufTy).Contents (Elt Ideal))
    (b : Fin 4) (p : Fin 256) (col : Fin 9120) :
    val_main_v3 (F := Ideal) x0 x1 x2 (ix3 b p col) = Cert.Unpool.result x0 x1 x2 b p col := by
  rw [val_main_v3_apply]
  unfold Cert.Unpool.result
  refine Finset.sum_congr rfl fun k _ => ?_
  have el : lidx_main_v3 (ix3 b p col) k = ix3 b p k :=
    funext fun a => Fin.ext (by match a with | ⟨0, _⟩ => rfl | ⟨1, _⟩ => rfl | ⟨2, _⟩ => rfl)
  have er : ridx_main_v3 (ix3 b p col) k = ix3 b k col :=
    funext fun a => Fin.ext (by match a with | ⟨0, _⟩ => rfl | ⟨1, _⟩ => rfl | ⟨2, _⟩ => rfl)
  have eo : idx_main_v0 (idx_main_v1 (ix3 b k col)) = ix2 b col :=
    funext fun a => Fin.ext (by match a with | ⟨0, _⟩ => rfl | ⟨1, _⟩ => rfl)
  rw [el, er, val_main_v2_apply, val_main_v1_apply, val_main_v0_apply, eo]
  rfl

/-- As whole arrays: the reference's last stage is the result array. -/
theorem reference_eq (x0 : (⟨S4x256x4560, .f32⟩ : BufTy).Contents (Elt Ideal))
    (x1 : (⟨S4x4560x9120, .f32⟩ : BufTy).Contents (Elt Ideal)) (x2 : (⟨S4x9120, .f32⟩ : BufTy).Contents (Elt Ideal)) :
    val_main_v3 (F := Ideal) x0 x1 x2 = Cert.Unpool.resultArr x0 x1 x2 := by
  funext i
  obtain ⟨b, p, col, rfl⟩ : ∃ (b : Fin 4) (p : Fin 256) (col : Fin 9120), i = ix3 b p col := ⟨i 0, i 1, i 2, eq_ix3 i⟩
  rw [Cert.Unpool.resultArr_apply]
  exact reference_apply x0 x1 x2 b p col

end Cert.ReferenceIdeal.RefValue

end
-- ==== Proof.lean ====
/-
  A group-assignment product ("mesh unpool"): with features feat : [4, 256, 4560], a membership matrix
  mat : [4, 4560, 9120] and occurrence counts occ : [4, 9120],

      out (b, p, c) = ∑ k < 4560, feat (b, p, k) * (mat (b, k, c) / occ (b, c)).

  The reference divides the matrix by the counts (copied down the rows) and contracts. The kernel pads the summation
  axis to 4608 = 6 · 768 with zeros and the column axis to 9216 = 9 · 1024 (the counts with ones), and on a grid of
  4 · 9 · 6 points computes, for each batch and column block, the six partial products of a [256, 768] feature block
  with the quotient of a [768, 1024] matrix block by its counts, summing them in an accumulator that is reset at the
  first of the six and copied to the output at the last; finally it cuts the columns back to 9120.

  Over the extended reals the two are the same function. The operands go into the matrix unit as bf16 in the kernel
  and as f32 in the reference, which at the ideal values is no difference; the kernel's quotient and the host's are
  one function; a sum of 4608 terms taken six blocks at a time is the sum (addition of extended reals is
  commutative and associative); and each of the 48 padded terms is 0 * x = 0, whatever extended real the padded
  quotient x is. Since no law used here needs a finite operand, the precondition is never opened.

  The modules: Spec (the result and the two facts about sums), Payload (the body's arithmetic at an index), Pieces
  (what each control case of the body leaves), Blocks (the windows' blocks as entries of the arrays), Host (the
  padded arrays at an index), Fold (the accumulator after each point, by induction on the point), Final (the output
  array, the cut, the kernel's run), RefValue (the reference's stage at an index).
-/
import proofs.«133366_j34256659153543_2_alg».proof.Defs
import proofs.«133366_j34256659153543_2_alg».proof.Proof.Gen.Kernel
import proofs.«133366_j34256659153543_2_alg».proof.Proof.Gen.Kernel.Skeleton
import proofs.«133366_j34256659153543_2_alg».proof.Proof.Gen.Kernel.Launch
import proofs.«133366_j34256659153543_2_alg».proof.Proof.Gen.Kernel.Points
import proofs.«133366_j34256659153543_2_alg».proof.Proof.Gen.Kernel.Frame
import proofs.«133366_j34256659153543_2_alg».proof.Proof.Gen.KernelIdeal
import proofs.«133366_j34256659153543_2_alg».proof.Proof.Gen.KernelIdeal.Skeleton
import proofs.«133366_j34256659153543_2_alg».proof.Proof.Gen.KernelIdeal.Launch
import proofs.«133366_j34256659153543_2_alg».proof.Proof.Gen.KernelIdeal.Points
import proofs.«133366_j34256659153543_2_alg».proof.Proof.Gen.KernelIdeal.Frame
import proofs.«133366_j34256659153543_2_alg».proof.Proof.Gen.ReferenceIdeal
import proofs.«133366_j34256659153543_2_alg».proof.Proof.Gen.ReferenceIdeal.Run
import proofs.«133366_j34256659153543_2_alg».proof.Proof.Gen.ReferenceIdeal.Read
import proofs.«133366_j34256659153543_2_alg».proof.Proof.Gen.Pre_finite_inputs
import proofs.«133366_j34256659153543_2_alg».proof.Proof.Final
import proofs.«133366_j34256659153543_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel :=
  fun m ρ _ => Cert.Kernel.Gen.frame m ρ

/-- So does its idealization. -/
theorem frame_ki : Cert.frame_KernelIdeal :=
  fun m ρ _ => Cert.KernelIdeal.Gen.frame m ρ

/-- The reference has no kernel: its frame is its run with the result forgotten. -/
theorem frame_ri : Cert.frame_ReferenceIdeal :=
  fun m ρ _ => (θ_run Cert.ReferenceIdeal.defs _ _).mono (fun _ h c => (h c).2)
    (Cert.ReferenceIdeal.Value.run (F := Ideal) m ρ)

/-- The ideal pass rewrote nothing. -/
theorem preserves : Cert.preserves_Kernel_KernelIdeal := trivial

/-- Both idealized programs end with the result array of their (agreeing) arguments. -/
theorem algebraic : Cert.algebraic_KernelIdeal_ReferenceIdeal := by
  intro m ρ m' ρ' _ hagree
  refine ⟨_, Cert.KernelIdeal.Unpool.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  exact Cert.ReferenceIdeal.RefValue.reference_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
